-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S1600000 32) (main_arg2 : IVec S1600000 32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 47
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S1x64, .f32⟩
  | .hbm, ⟨46, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x256, .f32⟩
  | .hbm, ⟨31, _⟩ => ⟨S100000x256, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT named.

  @main is five stretches of host operations, the projection's pallas_call, one more stretch (the gather, the
  scatter-add and two reshapes) and the epilogue's pallas_call. Every weakly fair execution terminates without a
  fault, and in the final state every unscoped buffer of a core holds what the fold of those eight segments leaves
  there: a stretch applies its operations' functions, a pallas_call replaces each of its arrays by what its
  write-backs leave and keeps every other buffer. Read at the result buffer this names the result array; read at an
  argument buffer it gives back the launch contents, since nothing writes an argument.
-/
import proofs.«155608_j57664230916482_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the fold
    of the segments leaves there (`W8`) and the five argument arrays as launched. -/
theorem run_named : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.RunValue

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Payloads.lean ====
/-
  The two kernel bodies' stored values, read at one entry, on the extended reals.

  The projection's body stores, for a block of 5000 rows, the matrix product of the block's rows of h, each row scaled
  by that row's entry of a one-column array, with the whole 256 x 64 weight matrix, accumulated into zero; the two
  narrowing format changes in front of the product are the identity on extended reals. At entry (p, q) this is
      Σ_{k < 256} (x(p, k) · s(p, 0)) · w(k, q).
  The epilogue's body stores max(a(p, q) · s(p, 0) + b(0, q), 0): the one-column array repeated along the 64 columns,
  the one-row bias repeated along the 5000 rows.
-/
import proofs.«155608_j57664230916482_2_alg».proof.Proof.Gen.KernelIdeal.Skeleton
import proofs.«155608_j57664230916482_2_alg».proof.Proof.LibMatmulZero
import proofs.«155608_j57664230916482_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's result axis 0 is its left operand's axis 0. -/
theorem dot_lhs0 (i : S5000x64.Idx) (c : dot_S5000x256_S256x64_S5000x64_1_0_0_1_n_n.contr.Idx) :
    (dot_S5000x256_S256x64_S5000x64_1_0_0_1_n_n.lhsIdx i c 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl

/-- The product's result axis 1 is its right operand's axis 1. -/
theorem dot_rhs1 (i : S5000x64.Idx) (c : dot_S5000x256_S256x64_S5000x64_1_0_0_1_n_n.contr.Idx) :
    (dot_S5000x256_S256x64_S5000x64_1_0_0_1_n_n.rhsIdx i c 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The projection's stored block at (p, q): the sum over the 256 input features of the scaled entry of row p times
    the weight's entry in column q. -/
theorem project_apply (x0 : FVec Ideal S5000x256 .f32) (x1 : FVec Ideal S5000x1 .f32) (x2 : FVec Ideal S256x64 .f32)
    (p : Fin 5000) (q : Fin 64) :
    k0_pay1 (F := Ideal) x0 x1 x2 (ix2 p q)
      = ∑ k : Fin 256, (x0 (ix2 p k) * x1 (ix2 p (0 : Fin 1))) * x2 (ix2 k q) := by
  unfold k0_pay1
  refine (Cert.LibMatmulZero.matmul_zero_ix2 dot_S5000x256_S256x64_S5000x64_1_0_0_1_n_n rfl rfl rfl rfl
    dot_lhs0 dot_rhs1 none _ _ p q).trans ?_
  refine Finset.sum_congr rfl fun k _ => ?_
  show (x0 (ix2 p k) * broadcastTo S5000x256 (shapeCast S5000x1 x1 shapeCasts_S5000x1_S5000x1) broadcasts_S5000x1_S5000x256 (ix2 p k))
      * x2 (ix2 k q) = _
  rw [shapeCast_self, Cert.LibRowOps.broadcastTo_a1_ab_apply]

/-- The epilogue's stored block at (p, q): the aggregate's entry scaled by row p's factor, plus column q's bias,
    cut off below at zero. -/
theorem finalize_apply (x0 : FVec Ideal S5000x64 .f32) (x1 : FVec Ideal S5000x1 .f32) (x2 : FVec Ideal S1x64 .f32)
    (p : Fin 5000) (q : Fin 64) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  show max (shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q))
      (Ideal.ofBits .f32 0x00000000#32) = _
  rw [shapeCast_self, shapeCast_self, shapeCast_self, Cert.LibRowOps.broadcastTo_a1_ab_apply, broadcastTo_1b_ab_apply]

end Cert.KernelIdeal.Payload

end
-- ==== Proof.Spec.lean ====
/-
  The two dense stages of the graph convolution as whole-array functions, on the extended reals.

  With N = 100000 nodes, 256 input features and 64 output features:
    * `project h s w`, the scaled projection: entry (n, j) is Σ_{k < 256} (h(n, k) · s(n, 0)) · w(k, j), where s is a
      one-column array holding each node's scale;
    * `finalize a s b`, the epilogue: entry (n, j) is max(a(n, j) · s(n, 0) + b(0, j), 0), where s is a one-column array
      of node scales and b a one-row array of biases.
  Both are stated with the row and column of an index taken as numbers below the literal extents, so that each side of
  the certificate can reach them from its own spelling of an index.
-/
import Idealize.ShloMosaic.PureOps.Ideal
import Idealize.ShloMosaic.Lib.ValueIdx

noncomputable section

open scoped BigOperators

namespace Cert.GraphConv

open Idealize.ShloMosaic Idealize.ShloMosaic.ValueIdx

/-- nodes × input features, nodes × 1, input × output features, nodes × output features, 1 × output features. -/
abbrev SNodesIn : Shape := ⟨2, ![100000, 256]⟩
abbrev SNodes1 : Shape := ⟨2, ![100000, 1]⟩
abbrev SInOut : Shape := ⟨2, ![256, 64]⟩
abbrev SNodesOut : Shape := ⟨2, ![100000, 64]⟩
abbrev S1Out : Shape := ⟨2, ![1, 64]⟩

/-- The node (row) of an index of a nodes × output-features array. -/
abbrev rowOf (i : SNodesOut.Idx) : Fin 100000 := ⟨(i 0).val, (i 0).isLt⟩
/-- The output feature (column) of such an index. -/
abbrev colOf (i : SNodesOut.Idx) : Fin 64 := ⟨(i 1).val, (i 1).isLt⟩

/-- The scaled projection: each row of `h` scaled by its node's factor, times the weight matrix. -/
def project (h : FVec Ideal SNodesIn .f32) (s : FVec Ideal SNodes1 .f32) (w : FVec Ideal SInOut .f32) :
    FVec Ideal SNodesOut .f32 :=
  fun i => ∑ k : Fin 256, (h (ix2 (rowOf i) k) * s (ix2 (rowOf i) (0 : Fin 1))) * w (ix2 k (colOf i))

/-- The epilogue: the aggregate scaled by its node's factor, plus the bias, cut off below at zero. -/
def finalize (a : FVec Ideal SNodesOut .f32) (s : FVec Ideal SNodes1 .f32) (b : FVec Ideal S1Out .f32) :
    FVec Ideal SNodesOut .f32 :=
  fun i => max (a i * s (ix2 (rowOf i) (0 : Fin 1)) + b (ix2 (0 : Fin 1) (colOf i))) (Ideal.ofBits .f32 0x00000000#32)

theorem project_ix2 (h : FVec Ideal SNodesIn .f32) (s : FVec Ideal SNodes1 .f32) (w : FVec Ideal SInOut .f32)
    (n : Fin 100000) (j : Fin 64) :
    project h s w (ix2 n j) = ∑ k : Fin 256, (h (ix2 n k) * s (ix2 n (0 : Fin 1))) * w (ix2 k j) := rfl

theorem finalize_ix2 (a : FVec Ideal SNodesOut .f32) (s : FVec Ideal SNodes1 .f32) (b : FVec Ideal S1Out .f32)
    (n : Fin 100000) (j : Fin 64) :
    finalize a s b (ix2 n j)
      = max (a (ix2 n j) * s (ix2 n (0 : Fin 1)) + b (ix2 (0 : Fin 1) j)) (Ideal.ofBits .f32 0x00000000#32) := rfl

end Cert.GraphConv

end
-- ==== Proof.Region0.lean ====
/-
  The projection's pallas_call: the array it leaves, as one function of the arrays it finds.

  The grid has 20 points. Point t reads rows 5000·t … 5000·t + 4999 of h and of the one-column scale array and the
  whole weight matrix, and writes back rows 5000·t … 5000·t + 4999 of the result. What it writes back is, entry by
  entry, the scaled projection of the arrays as the region finds them: a row of a block is a row of the array, so the
  sum over the 256 input features read inside the block is the same sum read in the array. The 20 blocks of rows tile
  the 100000 × 64 result, row r lying in block r / 5000, so the whole array ends as the scaled projection.
-/
import proofs.«155608_j57664230916482_2_alg».proof.Proof.Gen.KernelIdeal.Frame
import proofs.«155608_j57664230916482_2_alg».proof.Proof.Payloads
import proofs.«155608_j57664230916482_2_alg».proof.Proof.Spec
import Idealize.ShloMosaic.Lib.Pipeline.Value

set_option maxRecDepth 16384

noncomputable section

open scoped BigOperators

namespace Cert.KernelIdeal.Project

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the region reads, as it finds them: the node features, the scale column, the weight matrix. -/
abbrev featA (c : Dev nD) : FVec Ideal S100000x256 .f32 := V c main_arg0
abbrev scaleA (c : Dev nD) : FVec Ideal S100000x1 .f32 := V c main_v13
abbrev weightA (c : Dev nD) : FVec Ideal S256x64 .f32 := V c main_arg3

theorem origin : (![0, 0] : Fin 2 → Nat) = fun _ => 0 := funext fun a => by fin_cases a <;> rfl

/-- The block indices at grid point t: the three row-blocked windows are at block row t, the weight at its one block. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem block_onto : ∀ q0 : Fin 20, ∃ t : Fin cfg0.N, win0_3.index t = ![q0.val, 0] :=
  (by decide +kernel : ∀ q0 : Fin 20, ∃ t : Fin grid0.N, win0_3.index t = ![q0.val, 0])

/-- What point t writes back is block t of the scaled projection of the arrays as the region finds them. -/
theorem flushed_eq (c : Dev nD) (t : Fin cfg0.N) :
    (dat0 V c).flushed 3 t
      = ((cfg0.win 3).blk t).view.read (Elt Ideal) (project (V c main_arg0) (V c main_v13) (V c main_arg3)) := by
  show (cfg0.win 3).cut (grid0.coords t) ((dat0 V c).after 3 t) = _
  rw [after0_3]
  unfold out0_3
  rw [View.canon_unit_zero origin]
  simp only [View.ld_unit_zero (S := S5000x256) origin, View.ld_unit_zero (S := S5000x1) origin,
    View.ld_unit_zero (S := S256x64) origin]
  obtain ⟨e0, e1, e2, e3, e4, e5, e6, e7⟩ := block_index t
  funext j
  obtain ⟨p, q, rfl⟩ : ∃ (p : Fin 5000) (q : Fin 64), j = ix2 p q := ⟨j 0, j 1, eq_ix2 j⟩
  refine (Payload.project_apply (iblk0 V c 0 t) (iblk0 V c 1 t) (iblk0 V c 2 t) p q).trans ?_
  show _ = ∑ k : Fin 256, (featA V c (ix2 (rowOf (((cfg0.win 3).blk t).view.emb (ix2 p q))) k)
          * scaleA V c (ix2 (rowOf (((cfg0.win 3).blk t).view.emb (ix2 p q))) (0 : Fin 1)))
        * weightA V c (ix2 k (colOf (((cfg0.win 3).blk t).view.emb (ix2 p q))))
  refine Finset.sum_congr rfl fun k _ => ?_
  show (featA V c (((cfg0.win 0).blk t).view.emb (ix2 p k)) * scaleA V c (((cfg0.win 1).blk t).view.emb (ix2 p (0 : Fin 1))))
        * weightA V c (((cfg0.win 2).blk t).view.emb (ix2 k q))
      = (featA V c (ix2 (rowOf (((cfg0.win 3).blk t).view.emb (ix2 p q))) k)
          * scaleA V c (ix2 (rowOf (((cfg0.win 3).blk t).view.emb (ix2 p q))) (0 : Fin 1)))
        * weightA V c (ix2 k (colOf (((cfg0.win 3).blk t).view.emb (ix2 p q))))
  have hp : p.val < 5000 := p.isLt
  have hq : q.val < 64 := q.isLt
  have hk : k.val < 256 := k.isLt
  have h0 : ((cfg0.win 0).blk t).view.emb (ix2 p k) = ix2 (rowOf (((cfg0.win 3).blk t).view.emb (ix2 p q))) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have h1 : ((cfg0.win 1).blk t).view.emb (ix2 p (0 : Fin 1)) = ix2 (rowOf (((cfg0.win 3).blk t).view.emb (ix2 p q))) (0 : Fin 1) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : ((cfg0.win 2).blk t).view.emb (ix2 k q) = ix2 k (colOf (((cfg0.win 3).blk t).view.emb (ix2 p q))) := by
    funext a; apply Fin.ext
    match a with
    | ⟨0, _⟩ => show win0_2.index t (0 : Fin 2) * 256 + 1 * k.val = k.val; omega
    | ⟨1, _⟩ => show win0_2.index t (1 : Fin 2) * 64 + 1 * q.val = win0_3.index t (1 : Fin 2) * 64 + 1 * q.val; omega
  rw [h0, h1, h2]

/-- An index of the result is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v14).slice (win0_3.rect t)).set ↔ _
  rw [View.set_slice_whole, Rect.mem_set_unit]
  exact Iff.rfl

/-- Every entry of the result lies in the block of the point numbered by its row divided by 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the region: the scaled projection of the arrays the region finds. -/
theorem array_eq (c : Dev nD) :
    (dat0 V c).arrAt 3 cfg0.N = project (V c main_arg0) (V c main_v13) (V c main_arg3) :=
  (dat0 V c).arrAt_eq_of_cover 3 (project (V c main_arg0) (V c main_v13) (V c main_arg3))
    (fun t _ => flushed_eq V c t) covered

end Cert.KernelIdeal.Project

end
-- ==== Proof.Region1.lean ====
/-
  The epilogue's pallas_call: the array it leaves, as one function of the arrays it finds.

  The grid has 20 points. Point t reads rows 5000·t … 5000·t + 4999 of the aggregate and of the one-column scale array
  and the whole one-row bias, and writes back the same rows of the result: entry by entry the aggregate times its
  node's scale, plus its column's bias, cut off below at zero. A row of a block is a row of the array and the bias has
  one row, so what point t writes back is block t of the epilogue of the arrays as the region finds them. The 20 blocks
  of rows tile the 100000 × 64 result, row r lying in block r / 5000.
-/
import proofs.«155608_j57664230916482_2_alg».proof.Proof.Gen.KernelIdeal.Frame
import proofs.«155608_j57664230916482_2_alg».proof.Proof.Payloads
import proofs.«155608_j57664230916482_2_alg».proof.Proof.Spec
import Idealize.ShloMosaic.Lib.Pipeline.Value

set_option maxRecDepth 16384

noncomputable section

namespace Cert.KernelIdeal.Finalize

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the region reads, as it finds them: the aggregate, the scale column, the bias row. -/
abbrev aggA (c : Dev nD) : FVec Ideal S100000x64 .f32 := V c main_v24
abbrev scaleA (c : Dev nD) : FVec Ideal S100000x1 .f32 := V c main_v25
abbrev biasA (c : Dev nD) : FVec Ideal S1x64 .f32 := V c main_v26

theorem origin : (![0, 0] : Fin 2 → Nat) = fun _ => 0 := funext fun a => by fin_cases a <;> rfl

/-- The block indices at grid point t: the three row-blocked windows are at block row t, the bias at its one block. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row of the result is some point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the epilogue of the arrays as the region finds them. -/
theorem flushed_eq (c : Dev nD) (t : Fin cfg1.N) :
    (dat1 V c).flushed 3 t
      = ((cfg1.win 3).blk t).view.read (Elt Ideal) (finalize (V c main_v24) (V c main_v25) (V c main_v26)) := by
  show (cfg1.win 3).cut (grid1.coords t) ((dat1 V c).after 3 t) = _
  rw [after1_3]
  unfold out1_3
  rw [View.canon_unit_zero origin]
  simp only [View.ld_unit_zero (S := S5000x64) origin, View.ld_unit_zero (S := S5000x1) origin,
    View.ld_unit_zero (S := S1x64) origin]
  obtain ⟨e0, e1, e2, e3, e4, e5, e6, e7⟩ := block_index t
  funext j
  obtain ⟨p, q, rfl⟩ : ∃ (p : Fin 5000) (q : Fin 64), j = ix2 p q := ⟨j 0, j 1, eq_ix2 j⟩
  refine (Payload.finalize_apply (iblk1 V c 0 t) (iblk1 V c 1 t) (iblk1 V c 2 t) p q).trans ?_
  show max (aggA V c (((cfg1.win 0).blk t).view.emb (ix2 p q)) * scaleA V c (((cfg1.win 1).blk t).view.emb (ix2 p (0 : Fin 1)))
        + biasA V c (((cfg1.win 2).blk t).view.emb (ix2 (0 : Fin 1) q))) (Ideal.ofBits .f32 0x00000000#32)
      = max (aggA V c (((cfg1.win 3).blk t).view.emb (ix2 p q))
          * scaleA V c (ix2 (rowOf (((cfg1.win 3).blk t).view.emb (ix2 p q))) (0 : Fin 1))
        + biasA V c (ix2 (0 : Fin 1) (colOf (((cfg1.win 3).blk t).view.emb (ix2 p q))))) (Ideal.ofBits .f32 0x00000000#32)
  have hp : p.val < 5000 := p.isLt
  have hq : q.val < 64 := q.isLt
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h1 : ((cfg1.win 1).blk t).view.emb (ix2 p (0 : Fin 1)) = ix2 (rowOf (((cfg1.win 3).blk t).view.emb (ix2 p q))) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : ((cfg1.win 2).blk t).view.emb (ix2 (0 : Fin 1) q) = ix2 (0 : Fin 1) (colOf (((cfg1.win 3).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  rw [h0, h1, h2]

/-- An index of the result is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v27).slice (win1_3.rect t)).set ↔ _
  rw [View.set_slice_whole, Rect.mem_set_unit]
  exact Iff.rfl

/-- Every entry of the result lies in the block of the point numbered by its row divided by 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the region: the epilogue of the arrays the region finds. -/
theorem array_eq (c : Dev nD) :
    (dat1 V c).arrAt 3 cfg1.N = finalize (V c main_v24) (V c main_v25) (V c main_v26) :=
  (dat1 V c).arrAt_eq_of_cover 3 (finalize (V c main_v24) (V c main_v25) (V c main_v26))
    (fun t _ => flushed_eq V c t) covered

end Cert.KernelIdeal.Finalize

end
-- ==== Proof.RefValue.lean ====
/-
  The reference's two dense stages are the specification's two functions.

  Read one operation at a time, the reference's matrix product has at entry (n, j) the sum over the 256 input features
  k of (h(n, k) · s(n, 0)) · w(k, j): its left operand is h times the node scales, which were laid out as a column and
  repeated along the 256 features, so the factor beside h(n, k) is the column's entry (n, 0). Its result has at (n, j)
  max(a(n, j) · s'(n, 0) + b(0, j), 0): the second scale column repeated along the 64 output features, the bias laid
  out as one row and repeated along the nodes, and the cut-off against a splat zero. Between the two stands the
  gather of rows by source node and the scatter-add by destination node, which is left closed: a function `aggregate`
  of the projected array and the two index lists.
-/
import proofs.«155608_j57664230916482_2_alg».proof.Proof.Gen.ReferenceIdeal.Read
import proofs.«155608_j57664230916482_2_alg».proof.Proof.Spec
import proofs.«155608_j57664230916482_2_alg».proof.Proof.LibRowOps
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Read Cert.GraphConv
open Idealize.ShloMosaic Idealize.ShloMosaic.ValueIdx

/-- The rows of the projected array gathered by source node (a negative index wrapped by the node count first) and
    added up by destination node into a zero array. -/
def aggregate {F : FTy → Type} [FloatOps F] (x : FVec F S100000x64 .f32) (src dst : IVec S1600000 32) :
    FVec F S100000x64 .f32 :=
  Host.scatterAdd scatter_S100000x64_S1600000x1_S1600000x64_1_0_0_1 (val_main_v24 (F := F)) (val_main_v25 (F := F) dst)
    (Host.gather gather_S100000x64_S1600000x1_S1600000x64_1_0_n_n_0_1_164 x (val_main_v22 (F := F) src))

/-- The scatter-add stage is `aggregate` of the matrix product's stage. -/
theorem aggregate_eq {F : FTy → Type} [FloatOps F] (x0 : FVec F S100000x256 .f32) (x1 x2 : IVec S1600000 32)
    (x3 : FVec F S256x64 .f32) :
    val_main_v26 (F := F) x0 x1 x2 x3 = aggregate (val_main_v16 (F := F) x0 x1 x3) x1 x2 := rfl

/-- The matrix product's stage is the scaled projection, the scales being the first scale column. -/
theorem project_eq (x0 : FVec Ideal S100000x256 .f32) (x1 : IVec S1600000 32) (x3 : FVec Ideal S256x64 .f32) :
    val_main_v16 (F := Ideal) x0 x1 x3 = project x0 (val_main_v13 (F := Ideal) x1) x3 := by
  funext i
  obtain ⟨n, j, rfl⟩ : ∃ (n : Fin 100000) (j : Fin 64), i = ix2 n j := ⟨i 0, i 1, eq_ix2 i⟩
  rw [val_main_v16_apply, project_ix2]
  refine Finset.sum_congr rfl fun k _ => ?_
  have el : lidx_main_v16 (ix2 n j) k = ix2 n k := funext fun a => Fin.ext (by
    match a with
    | ⟨0, _⟩ => rfl
    | ⟨1, _⟩ => rfl)
  have er : ridx_main_v16 (ix2 n j) k = ix2 k j := funext fun a => Fin.ext (by
    match a with
    | ⟨0, _⟩ => rfl
    | ⟨1, _⟩ => rfl)
  have ec : idx_main_v14 (ix2 n k) = ix2 n (0 : Fin 1) := funext fun a => Fin.ext (by
    match a with
    | ⟨0, _⟩ => rfl
    | ⟨1, _⟩ => rfl)
  rw [el, er, val_main_v15_apply, val_main_v14_apply, ec]
  rfl

/-- The result's stage is the epilogue of the scatter-add stage, the second scale column and the bias row. -/
theorem finalize_eq (x0 : FVec Ideal S100000x256 .f32) (x1 x2 : IVec S1600000 32) (x3 : FVec Ideal S256x64 .f32)
    (x4 : FVec Ideal S64 .f32) :
    val_main_v33 (F := Ideal) x0 x1 x2 x3 x4
      = finalize (val_main_v26 (F := Ideal) x0 x1 x2 x3) (val_main_v27 (F := Ideal) x2) (val_main_v30 (F := Ideal) x4) := by
  funext i
  obtain ⟨n, j, rfl⟩ : ∃ (n : Fin 100000) (j : Fin 64), i = ix2 n j := ⟨i 0, i 1, eq_ix2 i⟩
  have es : idx_main_v28 (ix2 n j) = ix2 n (0 : Fin 1) := funext fun a => Fin.ext (by
    match a with
    | ⟨0, _⟩ => rfl
    | ⟨1, _⟩ => rfl)
  have eb : idx_main_v31 (ix2 n j) = ix2 (0 : Fin 1) j := funext fun a => Fin.ext (by
    match a with
    | ⟨0, _⟩ => rfl
    | ⟨1, _⟩ => rfl)
  rw [val_main_v33_apply, val_main_v32_apply, val_main_v29_apply, val_main_v28_apply, val_main_v31_apply,
    val_main_call2_v0_apply, val_main_call2_cst_apply, es, eb, finalize_ix2]
  rfl

/-! ## A vector laid out as a column, or as a row: the same array as its reshape -/

/-- The first scale vector laid out as a column is that vector reshaped to one column. -/
theorem scaleColumn_eq (x1 : IVec S1600000 32) (h : S100000.ShapeCasts S100000x1) :
    val_main_v13 (F := Ideal) x1 = shapeCast S100000x1 (val_main_v9 (F := Ideal) x1) h := by
  funext i
  obtain ⟨n, u, rfl⟩ : ∃ (n : Fin 100000) (u : Fin 1), i = ix2 n u := ⟨i 0, i 1, eq_ix2 i⟩
  rw [val_main_v13_apply, Cert.LibRowOps.shapeCast_a_a1_apply]
  exact congrArg _ (funext fun a => Fin.ext (by
    match a with
    | ⟨0, _⟩ => rfl))

/-- The second scale vector laid out as a column is that vector reshaped to one column. -/
theorem scaleColumn2_eq (x2 : IVec S1600000 32) (h : S100000.ShapeCasts S100000x1) :
    val_main_v27 (F := Ideal) x2 = shapeCast S100000x1 (val_main_v12 (F := Ideal) x2) h := by
  funext i
  obtain ⟨n, u, rfl⟩ : ∃ (n : Fin 100000) (u : Fin 1), i = ix2 n u := ⟨i 0, i 1, eq_ix2 i⟩
  rw [val_main_v27_apply, Cert.LibRowOps.shapeCast_a_a1_apply]
  exact congrArg _ (funext fun a => Fin.ext (by
    match a with
    | ⟨0, _⟩ => rfl))

/-- The bias laid out as one row is the bias reshaped to one row. -/
theorem biasRow_eq (x4 : FVec Ideal S64 .f32) (h : S64.ShapeCasts S1x64) :
    val_main_v30 (F := Ideal) x4 = shapeCast S1x64 x4 h := by
  funext i
  obtain ⟨u, j, rfl⟩ : ∃ (u : Fin 1) (j : Fin 64), i = ix2 u j := ⟨i 0, i 1, eq_ix2 i⟩
  rw [val_main_v30_apply, shapeCast_a_1a_apply]
  exact congrArg _ (funext fun a => Fin.ext (by
    match a with
    | ⟨0, _⟩ => rfl))

end Cert.ReferenceIdeal.RefValue

end
-- ==== Proof.HostStretches.lean ====
/-
  What the stretches of host operations leave in the buffers the two pallas_calls read, for any float values.

  The fold of @main's segments is a computation of buffer contents: a stretch of host operations applies each
  operation's function to what its operand buffers hold, and a pallas_call changes only its own arrays. Read at the
  buffers that matter:
    * when the projection's pallas_call starts, the node features and the weights are as launched, and the scale column
      is the first scale vector (each node's count of outgoing edges, at least one, to the power -1/2) reshaped;
    * the index lists, the bias and the second scale vector (from the incoming edges) are not arrays of that
      pallas_call, so it leaves them as they were;
    * when the epilogue's pallas_call starts, the aggregate is the gather of the projected array's rows by source node
      followed by the scatter-add by destination node; the scale column is the second scale vector reshaped and the bias
      row the bias reshaped.
  The scale vectors and the gather and scatter-add are named by the reference's own stage functions: they are the same
  operations applied to the same operands, and nothing here looks inside them. Everything is stated for an arbitrary
  interpretation of the float operations, where these equalities are between the same expressions.
-/
import proofs.«155608_j57664230916482_2_alg».proof.Proof.Gen.KernelIdeal.Frame
import proofs.«155608_j57664230916482_2_alg».proof.Proof.RefValue
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem
open Idealize.ShloMosaic.StableHlo
open Cert.ReferenceIdeal.Read (val_main_v9 val_main_v12)
open Cert.ReferenceIdeal.RefValue (aggregate)

variable {F : FTy → Type} [FloatOps F]
variable (m : (ℓ : Loc nD τ sig) → Buf (Elt F) ℓ) (ρ : Dev nD → PrngReg)

/-- The launch contents of the five arguments on core c: node features, source and destination index lists, weights,
    bias. -/
abbrev feat (c : Dev nD) : FVec F S100000x256 .f32 := m ((c : Thread nD τ).loc main_arg0)
abbrev srcI (c : Dev nD) : IVec S1600000 32 := m ((c : Thread nD τ).loc main_arg1)
abbrev dstI (c : Dev nD) : IVec S1600000 32 := m ((c : Thread nD τ).loc main_arg2)
abbrev weight (c : Dev nD) : FVec F S256x64 .f32 := m ((c : Thread nD τ).loc main_arg3)
abbrev bias (c : Dev nD) : FVec F S64 .f32 := m ((c : Thread nD τ).loc main_arg4)

/-! ## What the projection's pallas_call finds -/

theorem entry0_feat (c : Dev nD) : V5 m ρ c main_arg0 = feat m c := by
  show W5 m ρ c (Proc.devRef .tc main_arg0) = _
  dsimp only [W5, W4, W3, W2, W1, hostOps0, hostOps0_1, hostOps0_2, hostOps0_3, hostOps0_4]
  after_results

theorem entry0_weight (c : Dev nD) : V5 m ρ c main_arg3 = weight m c := by
  show W5 m ρ c (Proc.devRef .tc main_arg3) = _
  dsimp only [W5, W4, W3, W2, W1, hostOps0, hostOps0_1, hostOps0_2, hostOps0_3, hostOps0_4]
  after_results

/-- The scale column the projection reads: the first scale vector, reshaped. -/
theorem entry0_scale (c : Dev nD) :
    V5 m ρ c main_v13 = shapeCast S100000x1 (val_main_v9 (F := F) (srcI m c)) shapeCasts_S100000_S100000x1 := by
  show W5 m ρ c (Proc.devRef .tc main_v13) = _
  dsimp only [W5, W4, W3, W2, W1, hostOps0, hostOps0_1, hostOps0_2, hostOps0_3, hostOps0_4]
  after_results
  rfl

/-! ## What the five stretches leave beside it, and the projection's pallas_call does not touch -/

theorem before0_src (c : Dev nD) : W5 m ρ c (Proc.devRef .tc main_arg1) = srcI m c := by
  dsimp only [W5, W4, W3, W2, W1, hostOps0, hostOps0_1, hostOps0_2, hostOps0_3, hostOps0_4]
  after_results

theorem before0_dst (c : Dev nD) : W5 m ρ c (Proc.devRef .tc main_arg2) = dstI m c := by
  dsimp only [W5, W4, W3, W2, W1, hostOps0, hostOps0_1, hostOps0_2, hostOps0_3, hostOps0_4]
  after_results

theorem before0_bias (c : Dev nD) : W5 m ρ c (Proc.devRef .tc main_arg4) = bias m c := by
  dsimp only [W5, W4, W3, W2, W1, hostOps0, hostOps0_1, hostOps0_2, hostOps0_3, hostOps0_4]
  after_results

/-- The second scale vector, computed before the projection and used after it. -/
theorem before0_scale2 (c : Dev nD) :
    W5 m ρ c (Proc.devRef .tc main_v12) = val_main_v12 (F := F) (dstI m c) := by
  dsimp only [W5, W4, W3, W2, W1, hostOps0, hostOps0_1, hostOps0_2, hostOps0_3, hostOps0_4]
  after_results
  rfl

theorem exit0_src (c : Dev nD) : W6 m ρ c (Proc.devRef .tc main_arg1) = srcI m c :=
  (W6_of_ne m ρ c main_arg1 (by decide)).trans (before0_src m ρ c)

theorem exit0_dst (c : Dev nD) : W6 m ρ c (Proc.devRef .tc main_arg2) = dstI m c :=
  (W6_of_ne m ρ c main_arg2 (by decide)).trans (before0_dst m ρ c)

theorem exit0_bias (c : Dev nD) : W6 m ρ c (Proc.devRef .tc main_arg4) = bias m c :=
  (W6_of_ne m ρ c main_arg4 (by decide)).trans (before0_bias m ρ c)

theorem exit0_scale2 (c : Dev nD) :
    W6 m ρ c (Proc.devRef .tc main_v12) = val_main_v12 (F := F) (dstI m c) :=
  (W6_of_ne m ρ c main_v12 (by decide)).trans (before0_scale2 m ρ c)

/-! ## What the epilogue's pallas_call finds -/

/-- The aggregate: rows of the projected array gathered by source node, added up by destination node. -/
theorem entry1_agg (c : Dev nD) :
    V7 m ρ c main_v24
      = aggregate (W6 m ρ c (Proc.devRef .tc main_v14)) (W6 m ρ c (Proc.devRef .tc main_arg1))
          (W6 m ρ c (Proc.devRef .tc main_arg2)) := by
  show StableHlo.after hostOps1 (W6 m ρ c) (Proc.devRef .tc main_v24) = _
  dsimp only [hostOps1]
  after_results_simp
  rfl

theorem entry1_scale (c : Dev nD) :
    V7 m ρ c main_v25 = shapeCast S100000x1 (W6 m ρ c (Proc.devRef .tc main_v12)) shapeCasts_S100000_S100000x1 := by
  show StableHlo.after hostOps1 (W6 m ρ c) (Proc.devRef .tc main_v25) = _
  dsimp only [hostOps1]
  after_results_simp
  rfl

theorem entry1_bias (c : Dev nD) :
    V7 m ρ c main_v26 = shapeCast S1x64 (W6 m ρ c (Proc.devRef .tc main_arg4)) shapeCasts_S64_S1x64 := by
  show StableHlo.after hostOps1 (W6 m ρ c) (Proc.devRef .tc main_v26) = _
  dsimp only [hostOps1]
  after_results_simp
  rfl

end Cert.KernelIdeal.Stretches

end
-- ==== Proof.KernelValue.lean ====
/-
  The idealized kernel's result array as one term of its five arguments, on the extended reals.

  Reading the fold of @main's segments backwards from the result buffer:
    * the epilogue's pallas_call leaves in it the epilogue of three arrays it finds: the aggregate, the second scale
      vector reshaped to a column, the bias reshaped to a row;
    * the stretch of host operations before it wrote those three: the aggregate is the gather of the projected array's
      rows by source node followed by the scatter-add by destination node;
    * the projected array is what the projection's pallas_call leaves: the scaled projection of the node features, the
      first scale vector reshaped to a column, and the weights.
  On the reference's side the result stage is the epilogue of its scatter-add stage, its second scale column and its
  bias row; the scatter-add stage is the same gather and scatter-add of its matrix product, which is the scaled
  projection with its first scale column; and a vector laid out as a column or as a row is that vector reshaped. So the
  kernel's result array is the reference's result stage of the same five arguments.
-/
import proofs.«155608_j57664230916482_2_alg».proof.Proof.KernelRun
import proofs.«155608_j57664230916482_2_alg».proof.Proof.Region0
import proofs.«155608_j57664230916482_2_alg».proof.Proof.Region1
import proofs.«155608_j57664230916482_2_alg».proof.Proof.RefValue
import proofs.«155608_j57664230916482_2_alg».proof.Proof.HostStretches

set_option maxRecDepth 16384

noncomputable section

namespace Cert.KernelIdeal.Whole

open Cert.KernelIdeal Cert.KernelIdeal.Gen Cert.GraphConv Cert.KernelIdeal.Stretches
open Idealize.ShloMosaic Idealize.ShloMosaic.TcCoe Idealize.ShloMosaic.ValueIdx Idealize.SL.Sem
open Cert.ReferenceIdeal.Read (val_main_v9 val_main_v12 val_main_v33)
open Cert.ReferenceIdeal.RefValue (aggregate)

variable (m : (ℓ : Loc nD τ sig) → Buf (Elt Ideal) ℓ) (ρ : Dev nD → PrngReg)

/-- After the projection's pallas_call its result array is the scaled projection of the arguments and the first scale
    vector. -/
theorem exit0_projected (c : Dev nD) :
    W6 m ρ c (Proc.devRef .tc main_v14)
      = project (feat m c) (shapeCast S100000x1 (val_main_v9 (F := Ideal) (srcI m c)) shapeCasts_S100000_S100000x1)
          (weight m c) := by
  refine (W6_arr m ρ c 3).trans ((Project.array_eq (V5 m ρ) c).trans ?_)
  rw [entry0_feat, entry0_scale, entry0_weight]

/-- The result buffer after @main holds the reference's result stage of the five arguments. -/
theorem result_eq (c : Dev nD) :
    W8 m ρ c (Proc.devRef .tc main_v27)
      = val_main_v33 (F := Ideal) (feat m c) (srcI m c) (dstI m c) (weight m c) (bias m c) := by
  refine (W8_arr m ρ c 3).trans ((Finalize.array_eq (V7 m ρ) c).trans ?_)
  rw [entry1_agg, entry1_scale, entry1_bias, exit0_projected, exit0_src, exit0_dst, exit0_scale2, exit0_bias,
    Cert.ReferenceIdeal.RefValue.finalize_eq, Cert.ReferenceIdeal.RefValue.aggregate_eq,
    Cert.ReferenceIdeal.RefValue.project_eq,
    Cert.ReferenceIdeal.RefValue.scaleColumn_eq _ shapeCasts_S100000_S100000x1,
    Cert.ReferenceIdeal.RefValue.scaleColumn2_eq _ shapeCasts_S100000_S100000x1,
    Cert.ReferenceIdeal.RefValue.biasRow_eq _ shapeCasts_S64_S1x64]

end Cert.KernelIdeal.Whole

end
-- ==== Proof.lean ====
/-
  A graph convolution with both-sided degree normalisation, out = relu(D_in^{-1/2} A D_out^{-1/2} h W + b), on
  100000 nodes, 1600000 edges, 256 input and 64 output features: a Pallas kernel program against its jnp reference,
  equal on the extended reals.

  Both programs compute the two scale vectors (each node's out- and in-degree, at least one, to the power -1/2) with the
  same host operations, gather the projected rows by source node and add them up by destination node with the same
  gather and scatter-add, so those are never opened. They differ in the two dense stages:
    * the projection x = (h · scale) W. The kernel computes it in 20 blocks of 5000 rows, each a matrix product of the
      block's scaled rows (narrowed to bf16, which is the identity on extended reals) with the whole weight matrix into a
      zero accumulator; the reference scales h by the scale vector repeated along the features and takes one product.
      Entry (n, j) is on both sides Σ_{k < 256} (h(n, k) · s(n)) · W(k, j), term by term: no law of arithmetic is used,
      so the inputs' finiteness is not needed.
    * the epilogue max(agg · scale' + b, 0). The kernel computes it in the same 20 row blocks from a scale column and
      a bias row; the reference from the scale vector and the bias repeated to full arrays. Entry (n, j) is on both
      sides max(agg(n, j) · s'(n) + b(j), 0).
  The idealized kernel's result is read off its run: the last pallas_call's result array is the epilogue of what it
  finds, which the host stretch before it computed from the first pallas_call's result, the scaled projection of what
  that one finds. The reference's result is its run's term read one operation at a time. Both are the reference's
  result stage of the same five arguments.
  The three frames: the two kernel programs' are their frame certificates; the reference has no kernel and its frame is
  its run with the result forgotten. The idealization rewrote nothing, so there is nothing to preserve.
-/
import proofs.«155608_j57664230916482_2_alg».proof.Defs
import proofs.«155608_j57664230916482_2_alg».proof.Proof.Gen.Kernel
import proofs.«155608_j57664230916482_2_alg».proof.Proof.Gen.Kernel.Skeleton
import proofs.«155608_j57664230916482_2_alg».proof.Proof.Gen.Kernel.Launch
import proofs.«155608_j57664230916482_2_alg».proof.Proof.Gen.Kernel.Points
import proofs.«155608_j57664230916482_2_alg».proof.Proof.Gen.Kernel.Frame
import proofs.«155608_j57664230916482_2_alg».proof.Proof.Gen.KernelIdeal
import proofs.«155608_j57664230916482_2_alg».proof.Proof.Gen.KernelIdeal.Skeleton
import proofs.«155608_j57664230916482_2_alg».proof.Proof.Gen.KernelIdeal.Launch
import proofs.«155608_j57664230916482_2_alg».proof.Proof.Gen.KernelIdeal.Points
import proofs.«155608_j57664230916482_2_alg».proof.Proof.Gen.KernelIdeal.Frame
import proofs.«155608_j57664230916482_2_alg».proof.Proof.Gen.ReferenceIdeal
import proofs.«155608_j57664230916482_2_alg».proof.Proof.Gen.ReferenceIdeal.Run
import proofs.«155608_j57664230916482_2_alg».proof.Proof.Gen.ReferenceIdeal.Read
import proofs.«155608_j57664230916482_2_alg».proof.Proof.Gen.Pre_finite_inputs
import proofs.«155608_j57664230916482_2_alg».proof.Proof.KernelRun
import proofs.«155608_j57664230916482_2_alg».proof.Proof.KernelValue
import proofs.«155608_j57664230916482_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments unchanged; the result's value is not needed here. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the same result array: the
    reference's result stage of those arguments. -/
theorem algebraic : Cert.algebraic_KernelIdeal_ReferenceIdeal := by
  intro m ρ m' ρ' _ hagree
  refine ⟨fun c => Cert.ReferenceIdeal.Read.val_main_v33 (F := Ideal) (Cert.KernelIdeal.Stretches.feat m c)
      (Cert.KernelIdeal.Stretches.srcI m c) (Cert.KernelIdeal.Stretches.dstI m c) (Cert.KernelIdeal.Stretches.weight m c)
      (Cert.KernelIdeal.Stretches.bias m c), ?_, ?_⟩
  · exact (θ_run Cert.KernelIdeal.defs _ _).mono
      (fun r h c => ⟨(h c).1.trans (Cert.KernelIdeal.Whole.result_eq m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v33_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
